-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3000x3000 : Shape := ⟨3, ![4, 3000, 3000]⟩
abbrev S_ : Shape := ⟨0, ![]⟩

class Facts : Prop where
  bcast_S_S4x3000x3000 : S_.BroadcastsInDim S4x3000x3000 (![] : Fin 0 → Fin S4x3000x3000.rank)
  reducesTo_S4x3000x3000_S_d0_1_2 : S4x3000x3000.ReducesTo [0, 1, 2] S_
  h_S_ : 0 < S_.numel

variable [Facts]

def fn {F : FTy → Type} [FloatOps F] (main_arg0 : FVec F S4x3000x3000 .f32) : IVec S_ 1 :=
  let main_v0 : FVec F S4x3000x3000 .f32 := Host.absf main_arg0
  let main_cst : FVec F S_ .f32 := constant S_ .f32 0x7F800000#32
  let main_v1 : FVec F S4x3000x3000 .f32 := broadcastInDim S4x3000x3000 ![] bcast_S_S4x3000x3000 main_cst
  let main_v2 : IVec S4x3000x3000 1 := cmpf .olt main_v0 main_v1
  let main_c : IVec S_ 1 := constantI S_ 1 1#1
  let main_v3 : IVec S_ 1 := (fun x v => Host.reduce IntOp.andi x v reducesTo_S4x3000x3000_S_d0_1_2 h_S_) main_v2 main_c
  main_v3
-- ==== Kernel.lean ====
abbrev S4x3000x3000 : Shape := ⟨3, ![4, 3000, 3000]⟩
abbrev S1x600x3000 : Shape := ⟨3, ![1, 600, 3000]⟩
abbrev S1x200x3000 : Shape := ⟨3, ![1, 200, 3000]⟩
abbrev S200x3000 : Shape := ⟨2, ![200, 3000]⟩
abbrev S200 : Shape := ⟨1, ![200]⟩
abbrev S200x1 : Shape := ⟨2, ![200, 1]⟩

abbrev nBuf : Space → Nat
  | .hbm => 2
  | .vmem => 4
  | .smem => 0
  | _ => 0

abbrev bufTy : (tb : Table) → Fin (tcTables nBuf tb) → BufTy
  | .hbm, ⟨0, _⟩ => ⟨S4x3000x3000, .f32⟩
  | .hbm, ⟨1, _⟩ => ⟨S4x3000x3000, .f32⟩
  | .local _ .vmem, ⟨0, _⟩ => ⟨S1x600x3000, .f32⟩
  | .local _ .vmem, ⟨1, _⟩ => ⟨S1x600x3000, .f32⟩
  | .local _ .vmem, ⟨2, _⟩ => ⟨S1x600x3000, .f32⟩
  | .local _ .vmem, ⟨3, _⟩ => ⟨S1x600x3000, .f32⟩
  | _, _ => ⟨S4x3000x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 5], ![false, false]⟩

@[reducible] def k0_t1_loop : Scf.Loop 32 :=
  let c0_i32 : BitVec 32 := 0#32
  let c3_i32 : BitVec 32 := 3#32
  let v0 : BitVec 32 := Scalar.addi c0_i32 c3_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c200_i32 : BitVec 32 := 200#32
  let v1 : BitVec 32 := Scalar.muli arg4 c200_i32
  v1
def k0_off1 (k0_t1 : Fin k0_t1_loop.trips) : Fin 3 → Nat :=
  let c0 : Index := 0#32
  let c0_i32 : BitVec 32 := 0#32
  let c1_i32 : BitVec 32 := 1#32
  let arg4 : BitVec 32 := Scf.iv c0_i32 c1_i32 k0_t1
  let c200_i32 : BitVec 32 := 200#32
  let v1 : BitVec 32 := Scalar.muli arg4 c200_i32
  let v2 : BitVec 32 := v1
  let v3 : Index := Scalar.indexCast v2
  let c0_1 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x600x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x600x3000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x200x3000 : 0 < S1x200x3000.numel
  shapeCasts_S1x200x3000_S200x3000 : S1x200x3000.ShapeCasts S200x3000
  reduces_S200x3000_S200 : S200x3000.Reduces [1] S200
  shapeCasts_S200_S200x1 : S200.ShapeCasts S200x1
  broadcasts_S200x1_S200x3000 : S200x1.Broadcasts S200x3000
  shapeCasts_S200x3000_S1x200x3000 : S200x3000.ShapeCasts S1x200x3000
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x200x3000.size a ≤ S1x600x3000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x600x3000.size a ≤ S4x3000x3000.size a
  hwx0_0 : ∀ i : grid0.Coords, EltTy.bits .f32 = 32 ∨ (Rect.block (s := S4x3000x3000) S1x600x3000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x600x3000.size a ≤ S4x3000x3000.size a
  hwx0_1 : ∀ i : grid0.Coords, EltTy.bits .f32 = 32 ∨ (Rect.block (s := S4x3000x3000) S1x600x3000.size (cc0_transform_1 i) (hinb0_1 i)).WholeWords (EltTy.packing .f32)

variable [Facts₀]

abbrev win0_0 : Pipeline.Window sig grid0 :=
  Pipeline.Window.ofSpec (Memref.whole main_arg0) S1x600x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x600x3000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x3000x3000 : Shape := ⟨3, ![4, 3000, 3000]⟩
abbrev S_ : Shape := ⟨0, ![]⟩
abbrev S4x3000 : Shape := ⟨2, ![4, 3000]⟩
abbrev S4x3000x1 : Shape := ⟨3, ![4, 3000, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x3000x3000, .f32⟩
  | .hbm, ⟨1, _⟩ => ⟨S_, .f32⟩
  | .hbm, ⟨2, _⟩ => ⟨S4x3000, .f32⟩
  | .hbm, ⟨3, _⟩ => ⟨S_, .f32⟩
  | .hbm, ⟨4, _⟩ => ⟨S4x3000, .f32⟩
  | .hbm, ⟨5, _⟩ => ⟨S4x3000, .i1⟩
  | .hbm, ⟨6, _⟩ => ⟨S_, .f32⟩
  | .hbm, ⟨7, _⟩ => ⟨S4x3000, .f32⟩
  | .hbm, ⟨8, _⟩ => ⟨S4x3000, .i1⟩
  | .hbm, ⟨9, _⟩ => ⟨S_, .f32⟩
  | .hbm, ⟨10, _⟩ => ⟨S_, .f32⟩
  | .hbm, ⟨11, _⟩ => ⟨S4x3000, .f32⟩
  | .hbm, ⟨12, _⟩ => ⟨S4x3000, .f32⟩
  | .hbm, ⟨13, _⟩ => ⟨S_, .f32⟩
  | .hbm, ⟨14, _⟩ => ⟨S4x3000, .f32⟩
  | .hbm, ⟨15, _⟩ => ⟨S4x3000, .f32⟩
  | .hbm, ⟨16, _⟩ => ⟨S_, .f32⟩
  | .hbm, ⟨17, _⟩ => ⟨S_, .f32⟩
  | .hbm, ⟨18, _⟩ => ⟨S4x3000, .f32⟩
  | .hbm, ⟨19, _⟩ => ⟨S4x3000, .f32⟩
  | .hbm, ⟨20, _⟩ => ⟨S4x3000x1, .f32⟩
  | .hbm, ⟨21, _⟩ => ⟨S4x3000x3000, .f32⟩
  | .hbm, ⟨22, _⟩ => ⟨S4x3000x3000, .f32⟩
  | _, _ => ⟨S4x3000x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  reducesTo_S4x3000x3000_S4x3000_d2 : S4x3000x3000.ReducesTo [2] S4x3000
  h_S_ : 0 < S_.numel
  bcast_S_S4x3000 : S_.BroadcastsInDim S4x3000 (![] : Fin 0 → Fin S4x3000.rank)
  bcast_S4x3000_S4x3000x1_0_1 : S4x3000.BroadcastsInDim S4x3000x1 (![0, 1] : Fin 2 → Fin S4x3000x1.rank)
  bcast_S4x3000x1_S4x3000x3000_0_1_2 : S4x3000x1.BroadcastsInDim S4x3000x3000 (![0, 1, 2] : Fin 3 → Fin S4x3000x3000.rank)

variable [Facts₀]

class Facts : Prop extends Facts₀ where

variable [Facts]
-- ==== Proof.RowScale.lean ====
/-
  The row-normalised array.  For an array `X` of rank three read over the extended reals, the entry at
  `(b, r, c)` of the result is `s(b, r) · X(b, r, c)`, where `s(b, r)` is the reciprocal of the row sum
  `d = ∑ₖ X(b, r, k)`, with the convention that a row of sum zero gets the factor zero.

  Both programs spell the factor as two selects around one quotient,
  `select (d = 0) 0 (1 / select (d = 0) 1 d)`; `recipOrZero` is that term, and `recipOrZero_eq` says it is
  `0` at `d = 0` and `1 / d` elsewhere (on the extended reals: `1 / ±∞ = 0`).

  The one structural fact used later: normalising commutes with restricting the array to a slab of whole rows
  (`normalized_restrict`), because an entry's factor depends on its own row only.
-/
import Idealize.ShloMosaic.PureOps.Ideal
import Idealize.ShloMosaic.PureOps.Ideal.Laws
import Idealize.ShloMosaic.Lib.ValueIdx

noncomputable section

open scoped BigOperators

namespace Cert.RowScale

open Idealize.ShloMosaic Idealize.ShloMosaic.ValueIdx

/-- The single-precision patterns of zero and of one, read on the extended reals. -/
abbrev fzero : EReal := Ideal.ofBits .f32 0x00000000#32
abbrev fone : EReal := Ideal.ofBits .f32 0x3F800000#32

theorem fzero_eq : fzero = 0 := Ideal.ofBits_zero_f32
theorem fone_eq : fone = 1 := IdealRules.sign_bit.ideal_onePat .f32

/-- The factor of a row whose sum is `d`, as both programs compute it: zero where `d = 0`; elsewhere one
    divided by `d` (the inner select only protects the quotient from a zero divisor). -/
def recipOrZero (d : EReal) : EReal :=
  Scalar.select (Ideal.cmp .oeq d fzero) fzero
    (Ideal.div fone (Scalar.select (Ideal.cmp .oeq d fzero) fone d))

/-- The factor in closed form. -/
theorem recipOrZero_eq (d : EReal) : recipOrZero d = if d = 0 then 0 else Ideal.div 1 d := by
  unfold recipOrZero
  rw [fzero_eq, fone_eq]
  by_cases h : d = 0
  · simp [Ideal.cmp, Scalar.select, h]
  · simp [Ideal.cmp, Scalar.select, h]

/-- The row-normalised array: entry `(b, r, c)` is the row's factor times the entry. -/
def normalized {n0 n1 n2 : Nat} (X : (⟨3, ![n0, n1, n2]⟩ : Shape).Idx → EReal) :
    (⟨3, ![n0, n1, n2]⟩ : Shape).Idx → EReal :=
  fun i => recipOrZero (∑ k : Fin n2, X (ix3 (n0 := n0) (n1 := n1) (i 0) (i 1) k)) * X i

theorem normalized_apply {n0 n1 n2 : Nat} (X : (⟨3, ![n0, n1, n2]⟩ : Shape).Idx → EReal) (b : Fin n0) (r : Fin n1) (c : Fin n2) :
    normalized X (ix3 b r c) = recipOrZero (∑ k : Fin n2, X (ix3 b r k)) * X (ix3 b r c) := rfl

/-- Normalising a slab of whole rows is the slab of the normalised array: if `e` embeds a smaller index set into a
    larger one, keeping the last coordinate and sending a row into a row, then the array `X ∘ e` normalised, at `y`,
    is `X` normalised at `e y` — the two row sums run over the same entries. -/
theorem normalized_restrict {n0 n1 m0 m1 n2 : Nat} (X : (⟨3, ![m0, m1, n2]⟩ : Shape).Idx → EReal)
    (e : (⟨3, ![n0, n1, n2]⟩ : Shape).Idx → (⟨3, ![m0, m1, n2]⟩ : Shape).Idx)
    (he : ∀ (y : (⟨3, ![n0, n1, n2]⟩ : Shape).Idx) (k : Fin n2),
      e (ix3 (n0 := n0) (n1 := n1) (y 0) (y 1) k) = ix3 (n0 := m0) (n1 := m1) (e y 0) (e y 1) k)
    (y : (⟨3, ![n0, n1, n2]⟩ : Shape).Idx) :
    normalized (fun y => X (e y)) y = normalized X (e y) := by
  show recipOrZero (∑ k : Fin n2, X (e (ix3 (n0 := n0) (n1 := n1) (y 0) (y 1) k))) * X (e y)
    = recipOrZero (∑ k : Fin n2, X (ix3 (n0 := m0) (n1 := m1) (e y 0) (e y 1) k)) * X (e y)
  rw [Finset.sum_congr rfl fun k _ => congrArg X (he y k)]

end Cert.RowScale

end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.SlabPayload.lean ====
/-
  What one trip of the kernel's loop stores.  A trip loads a slab of 200 whole rows of the staged block, and stores,
  over the same rows of the output block, each entry times its row's factor: the row sums are taken over the slab's
  last axis (a lane reduction whose starting value is the additive neutral, so it is just the sum), kept as a column,
  compared with zero, divided into one, selected, broadcast back along the row, and multiplied in.  Entry by entry that
  is the slab normalised (`RowScale.normalized`), the leading unit axis of the slab carried along by two recasts.
-/
import proofs.«130804_j33243046871372_2_alg».proof.Proof.Gen.KernelIdeal.Skeleton
import proofs.«130804_j33243046871372_2_alg».proof.Proof.RowScale
import proofs.«130804_j33243046871372_2_alg».proof.Proof.LibKeepdims
import Idealize.ShloMosaic.Lib.Pipeline.Value
import Idealize.ShloMosaic.Lib.ValueLayout
import Idealize.ShloMosaic.PureOps.Ideal.Laws

noncomputable section

open scoped BigOperators

namespace Cert.KernelRowScale

open Cert.KernelIdeal Cert.KernelIdeal.Gen Cert.RowScale Cert.LibKeepdims
open Idealize.ShloMosaic Idealize.ShloMosaic.ValueIdx

/-- The slab's row sums: the lane reduction of the slab (its unit axis dropped) at row `r` is the sum of the slab's
    entries of that row. -/
theorem slab_rowsum (v4 : Vec Ideal S1x200x3000 .f32) (h : S1x200x3000.ShapeCasts S200x3000)
    (hr : S200x3000.Reduces [1] S200) (hφ : FKind.Formats .f32)
    (hacc : (0x00000000#32 : BitVec 32) = FKind.add.neutral .f32 hφ) (r : Fin 200) :
    multiReduction (F := Ideal) .add [1] S200 (shapeCast S200x3000 v4 h) 0x00000000#32 hr hφ hacc (ix1 r)
      = ∑ k : Fin 3000, v4 (ix3 (0 : Fin 1) r k) := by
  refine (Ideal.multiReduction_add_single (shapeCast S200x3000 v4 h) 0x00000000#32 hr hφ hacc (ix1 r)).trans ?_
  refine Finset.sum_congr rfl fun k _ => ?_
  refine (congrArg (shapeCast S200x3000 v4 h) (funext fun a => Fin.ext (by
    match a with | ⟨0, _⟩ => rfl | ⟨1, _⟩ => rfl))).trans (shapeCast_1ab_ab_apply v4 h r k)

/-- The stored value at `(0, r, c)` of the slab: the row's factor times the loaded entry. -/
theorem slab_payload (v4 : Vec Ideal S1x200x3000 .f32) (u : Fin 1) (r : Fin 200) (c : Fin 3000) :
    k0_pay1 (F := Ideal) v4 (ix3 u r c) = normalized v4 (ix3 u r c) := by
  obtain rfl : u = 0 := Subsingleton.elim _ _
  rw [normalized_apply]
  unfold k0_pay1
  refine (shapeCast_ab_1ab_apply _ _ (0 : Fin 1) r c).trans ?_
  refine congrArg₂ (· * ·) ?_ (shapeCast_1ab_ab_apply v4 _ r c)
  refine (broadcastTo_a1_ab_apply _ _ r c).trans ?_
  show recipOrZero (shapeCast S200x1 _ _ (ix2 r (0 : Fin 1))) = _
  refine congrArg recipOrZero ?_
  exact (shapeCast_a_a1_apply _ _ r (0 : Fin 1)).trans (slab_rowsum v4 _ _ _ _ r)

end Cert.KernelRowScale

end
-- ==== Proof.BlockValue.lean ====
/-
  What the kernel's body leaves in the output block at a grid point.  The body is a loop of three trips; trip `k`
  loads rows `200k … 200k + 199` of the staged input block and stores those rows normalised (SlabPayload).  The three
  slabs tile the 600-row block, and each stored piece is the restriction of ONE function of the block index — the block
  normalised — because an entry's factor depends on its own row only.  So the block after the body is the input block
  normalised, whatever the order of the trips.
-/
import proofs.«130804_j33243046871372_2_alg».proof.Proof.Gen.KernelIdeal.Frame
import proofs.«130804_j33243046871372_2_alg».proof.Proof.SlabPayload

noncomputable section

open scoped BigOperators

namespace Cert.KernelRowScale

open Cert.KernelIdeal Cert.KernelIdeal.Gen Cert.RowScale
open Idealize.ShloMosaic Idealize.ShloMosaic.TcCoe Idealize.ShloMosaic.ValueIdx Idealize.SL.Sem

/-- A slab of whole rows sits in the block row by row: moving along the last axis inside the slab is moving along the
    last axis of the block, in the same row (the slab starts at column zero and has the block's full width). -/
theorem slab_rows (k : Fin k0_t1_loop.trips) (inb : ∀ a, k0_off1 k a + (![1, 200, 3000] : Fin 3 → Nat) a ≤ S1x600x3000.size a)
    (y : (⟨3, ![1, 200, 3000]⟩ : Shape).Idx) (j : Fin 3000) :
    (Rect.unit (s := S1x600x3000) (k0_off1 k) ![1, 200, 3000] inb).emb (ix3 (n0 := 1) (n1 := 200) (y 0) (y 1) j)
      = ix3 (n0 := 1) (n1 := 600) ((Rect.unit (s := S1x600x3000) (k0_off1 k) ![1, 200, 3000] inb).emb y 0)
          ((Rect.unit (s := S1x600x3000) (k0_off1 k) ![1, 200, 3000] inb).emb y 1) j :=
  funext fun a => Fin.ext (by
    match a with
    | ⟨0, _⟩ => rfl
    | ⟨1, _⟩ => rfl
    | ⟨2, _⟩ =>
      show k0_off1 k 2 + 1 * j.val = j.val
      rw [k0_off1_eq k]
      show 0 + 1 * j.val = j.val
      omega)

/-- The value trip `k` stores, at a position of its slab, is the block normalised at that position of the block. -/
theorem slab_value (arg2 : Memref sig .tc .vmem S1x600x3000 .f32) (harg2 : arg2.IsWhole)
    (x0 : Vec Ideal S1x600x3000 .f32) (k : Fin k0_t1_loop.trips)
    (inb : ∀ a, k0_off1 k a + (![1, 200, 3000] : Fin 3 → Nat) a ≤ S1x600x3000.size a)
    (x : (⟨3, ![1, 200, 3000]⟩ : Shape).Idx) :
    k0_pay1 (F := Ideal) (View.readAt (Elt Ideal) arg2.view
        (Rect.unit (s := S1x600x3000) (k0_off1 k) ![1, 200, 3000] inb).toLoadRect (harg2.unread x0)) x
      = normalized x0 ((Rect.unit (s := S1x600x3000) (k0_off1 k) ![1, 200, 3000] inb).emb x) := by
  rw [View.readAt_eq_ld, harg2.read_unread]
  obtain ⟨u, r, c, rfl⟩ : ∃ (u : Fin 1) (r : Fin 200) (c : Fin 3000), x = ix3 u r c := ⟨x 0, x 1, x 2, eq_ix3 x⟩
  refine (slab_payload _ u r c).trans ?_
  exact normalized_restrict (n0 := 1) (n1 := 200) (m0 := 1) (m1 := 600) (n2 := 3000) x0
    (fun y => (Rect.unit (s := S1x600x3000) (k0_off1 k) ![1, 200, 3000] inb).emb y) (slab_rows k inb) (ix3 u r c)

/-- Trip `k` writes one piece, and it is a piece of the normalised block. -/
theorem trip_piece (𝒱 : Variants) (c : Dev nD) (bd : Option 𝒱.V) (i : grid0.Coords)
    (arg2 : Memref sig .tc .vmem S1x600x3000 .f32) (harg2 : arg2.IsWhole)
    (arg3 : Memref sig .tc .vmem S1x600x3000 .f32) (harg3 : arg3.IsWhole)
    (x0 : Vec Ideal S1x600x3000 .f32) (k : Fin k0_t1_loop.trips) :
    ∀ p ∈ tripL_k0_t1 (F := Ideal) 𝒱 c bd i arg2 harg2 arg3 harg3 (harg2.unread x0) k,
      ∀ x : p.1.shape.Idx, p.2 x = normalized x0 (p.1.emb x) := by
  unfold tripL_k0_t1 trip_k0_t1
  dsimp only
  intro p hp
  obtain rfl := List.mem_singleton.mp hp
  intro x
  exact slab_value arg2 harg2 x0 k _ x

/-- So are all the pieces written before trip `n`, by induction on `n`. -/
theorem pieces_before (𝒱 : Variants) (c : Dev nD) (bd : Option 𝒱.V) (i : grid0.Coords)
    (arg2 : Memref sig .tc .vmem S1x600x3000 .f32) (harg2 : arg2.IsWhole)
    (arg3 : Memref sig .tc .vmem S1x600x3000 .f32) (harg3 : arg3.IsWhole)
    (x0 : Vec Ideal S1x600x3000 .f32) :
    ∀ (n : ℕ), ∀ p ∈ pb_k0_t1 (F := Ideal) 𝒱 c bd i arg2 harg2 arg3 harg3 (harg2.unread x0) n,
      ∀ x : p.1.shape.Idx, p.2 x = normalized x0 (p.1.emb x)
  | 0 => fun p hp => absurd hp List.not_mem_nil
  | n + 1 => by
    intro p hp
    rw [pb_k0_t1.eq_2] at hp
    unfold pb_k0_t1Step at hp
    split at hp
    · rcases List.mem_append.mp hp with h | h
      · exact trip_piece 𝒱 c bd i arg2 harg2 arg3 harg3 x0 _ p h
      · exact pieces_before 𝒱 c bd i arg2 harg2 arg3 harg3 x0 n p h
    · exact pieces_before 𝒱 c bd i arg2 harg2 arg3 harg3 x0 n p hp

/-- THE BLOCK AFTER THE BODY: the input block normalised. -/
theorem block_value (c : Dev nD) (i : grid0.Coords)
    (arg2 : Memref sig .tc .vmem S1x600x3000 .f32) (harg2 : arg2.IsWhole)
    (arg3 : Memref sig .tc .vmem S1x600x3000 .f32) (harg3 : arg3.IsWhole)
    (x0 : Vec Ideal S1x600x3000 .f32) :
    out0_A_1 (F := Ideal) c i arg2 harg2 arg3 harg3 x0 = normalized x0 := by
  unfold out0_A_1
  rw [View.read_writes_eq_canon _ _ _ (cover0_A_1 c i arg2 harg2 arg3 harg3 x0)]
  funext y
  refine View.canon_apply_of_pieces (normalized x0) _ ?_ y (cover0_A_1 c i arg2 harg2 arg3 harg3 x0 y)
  unfold kernelRun0_A
  dsimp only
  exact pieces_before Variants.none c none i arg2 harg2 arg3 harg3 x0 _

end Cert.KernelRowScale

end
-- ==== Proof.ArrayValue.lean ====
/-
  From blocks to the array.  The grid has one point per (batch, tile of 600 rows); at a point the input and the output
  window sit on the same block `(b, tile, 0)` of their arrays, of extents `[1, 600, 3000]` — whole rows.  The body
  leaves the input block normalised (BlockValue), and normalising a block of whole rows is taking that block of the
  normalised array (`RowScale.normalized_restrict`), so what each point writes back is its block of ONE function of the
  argument.  The twenty blocks tile the array (row `r` of batch `b` lies in tile `r / 600`), so after the run the result
  array is the argument normalised.
-/
import proofs.«130804_j33243046871372_2_alg».proof.Proof.Gen.KernelIdeal.Value
import proofs.«130804_j33243046871372_2_alg».proof.Proof.BlockValue

noncomputable section

open scoped BigOperators

namespace Cert.KernelRowScale

open Cert.KernelIdeal Cert.KernelIdeal.Gen Cert.KernelIdeal.Value Cert.RowScale
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the twenty points: the two windows move together, neither moves along the
    last axis, and the output's block indices stay in their ranges. -/
theorem index_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) ≤ 3 ∧ win0_1.index t (1 : Fin 3) ≤ 4 :=
  (by decide +kernel : ∀ t : Fin grid0.N, _)

/-- Every (batch, tile) pair is some point's block. -/
theorem index_onto : ∀ (q0 : Fin 4) (q1 : Fin 5), ∃ t : Fin cfg0.N, win0_1.index t = ![q0.val, q1.val, 0] :=
  (by decide +kernel : ∀ (q0 : Fin 4) (q1 : Fin 5), ∃ t : Fin grid0.N, win0_1.index t = ![q0.val, q1.val, 0])

/-- A block of whole rows, normalised, is that block of the normalised array: `Y` is `X` read through a placement
    `e0` that agrees with `e1`, and `e1` keeps the last coordinate and sends rows into rows. -/
theorem block_rows_value (X : S4x3000x3000.Idx → EReal) (Y : S1x600x3000.Idx → EReal)
    (e0 e1 : S1x600x3000.Idx → S4x3000x3000.Idx) (hY : ∀ y, Y y = X (e0 y)) (h01 : ∀ y, e0 y = e1 y)
    (he : ∀ (y : S1x600x3000.Idx) (k : Fin 3000),
      e1 (ix3 (n0 := 1) (n1 := 600) (y 0) (y 1) k) = ix3 (n0 := 4) (n1 := 3000) (e1 y 0) (e1 y 1) k)
    (j : S1x600x3000.Idx) : normalized Y j = normalized X (e1 j) := by
  obtain rfl : Y = fun y => X (e1 y) := funext fun y => (hY y).trans (congrArg X (h01 y))
  exact normalized_restrict (n0 := 1) (n1 := 600) (m0 := 4) (m1 := 3000) (n2 := 3000) X e1 he j

/-- WHAT POINT `t` WRITES BACK is block `t` of the argument normalised. -/
theorem flushed_eq (c : Dev nD) (t : Fin cfg0.N) :
    (dats m 0 c).flushed 1 t = ((cfg0.win 1).blk t).view.read (Elt Ideal) (normalized (V m c main_arg0)) := by
  rw [flushed1_A, block_value]
  obtain ⟨e0, e1, e2, e3, -, -⟩ := index_facts t
  funext j
  show normalized (iblk m c 0 t) j = normalized (V m c main_arg0) (((cfg0.win 1).blk t).view.emb j)
  refine block_rows_value (V m c main_arg0) (iblk m c 0 t) (fun y => ((cfg0.win 0).blk t).view.emb y)
    (fun y => ((cfg0.win 1).blk t).view.emb y) (fun y => rfl) (fun y => ?_) (fun y k => ?_) j
  · funext a; apply Fin.ext
    match a with
    | ⟨0, _⟩ => show win0_0.index t (0 : Fin 3) * 1 + 1 * (y 0).val = win0_1.index t (0 : Fin 3) * 1 + 1 * (y 0).val; rw [e0]
    | ⟨1, _⟩ => show win0_0.index t (1 : Fin 3) * 600 + 1 * (y 1).val = win0_1.index t (1 : Fin 3) * 600 + 1 * (y 1).val; rw [e1]
    | ⟨2, _⟩ => show win0_0.index t (2 : Fin 3) * 3000 + 1 * (y 2).val = win0_1.index t (2 : Fin 3) * 3000 + 1 * (y 2).val; rw [e2, e3]
  · funext a; apply Fin.ext
    match a with
    | ⟨0, _⟩ => rfl
    | ⟨1, _⟩ => rfl
    | ⟨2, _⟩ => show win0_1.index t (2 : Fin 3) * 3000 + 1 * k.val = k.val; rw [e3]; omega

/-- An index of the array is in point `t`'s block iff each coordinate is in the block's range on its axis. -/
theorem mem_blk (t : Fin cfg0.N) (i : S4x3000x3000.Idx) :
    i ∈ ((cfg0.win 1).blk t).view.set ↔ ∀ a : Fin 3, win0_1.index t a * S1x600x3000.size a ≤ (i a).val
      ∧ (i a).val < win0_1.index t a * S1x600x3000.size a + S1x600x3000.size a := by
  show i ∈ ((View.whole main_v0).slice (win0_1.rect t)).set ↔ _
  rw [View.set_slice_whole, Rect.mem_set_unit]
  exact Iff.rfl

/-- The blocks cover the array: entry `(b, r, c)` lies in the block of batch `b` and tile `r / 600`. -/
theorem covered (i : S4x3000x3000.Idx) :
    ∃ t : Fin cfg0.N, (cfg0.win 1).flush t = true ∧ i ∈ ((cfg0.win 1).blk t).view.set := by
  have hi0 : (i 0).val < 4 := (i 0).isLt
  have hi1 : (i 1).val < 3000 := (i 1).isLt
  have hi2 : (i 2).val < 3000 := (i 2).isLt
  obtain ⟨t, ht⟩ := index_onto ⟨(i 0).val, hi0⟩ ⟨(i 1).val / 600, by omega⟩
  have q0 : win0_1.index t (0 : Fin 3) = (i 0).val := congrFun ht 0
  have q1 : win0_1.index t (1 : Fin 3) = (i 1).val / 600 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 600 ≤ (i 1).val ∧ (i 1).val < win0_1.index t (1 : Fin 3) * 600 + 600
    omega
  | ⟨2, _⟩ =>
    show win0_1.index t (2 : Fin 3) * 3000 ≤ (i 2).val ∧ (i 2).val < win0_1.index t (2 : Fin 3) * 3000 + 3000
    omega

/-- THE ARRAY after the run: the argument normalised. -/
theorem final (c : Dev nD) : (dats m 0 c).arrAt 1 cfg0.N = normalized (V m c main_arg0) :=
  (dats m 0 c).arrAt_eq_of_cover 1 (normalized (V m c main_arg0)) (fun t _ => flushed_eq m c t) covered

/-- The kernel's run, read: the result array is the argument normalised, the argument unchanged. -/
theorem run : θ_run defs (onTc (τ := τ) (main (F := Ideal))) ⟨m, fun _ => 0, ρ⟩ fun r => ∀ c : Dev nD,
      r.2.mem ((c : Thread nD τ).loc main_v0) = normalized (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelRowScale

end
-- ==== Proof.RefRowScale.lean ====
/-
  The reference computes the row-normalised array.  Read one operation at a time, its result at `(b, r, c)` is the
  product of the argument's entry there with a factor that depends on `(b, r)` only: the row sum `0 + ∑ₖ x(b, r, k)`
  (the host's reduction starts from the float zero, which is the real zero), compared with zero twice, divided into one,
  and selected — the term `RowScale.recipOrZero` of the row sum.
-/
import proofs.«130804_j33243046871372_2_alg».proof.Proof.Gen.ReferenceIdeal.Read
import proofs.«130804_j33243046871372_2_alg».proof.Proof.RowScale

noncomputable section

open scoped BigOperators

namespace Cert.RefRowScale

open Cert.ReferenceIdeal Cert.ReferenceIdeal.Read Cert.RowScale
open Idealize.ShloMosaic Idealize.ShloMosaic.ValueIdx

/-- The reference's row sums: at `(b, r)` the sum of the row's entries (its starting value is zero). -/
theorem rowsum_eq (x0 : S4x3000x3000.Idx → EReal) (b : Fin 4) (r : Fin 3000) :
    val_main_v0 (F := Ideal) x0 (ix2 b r) = ∑ k : Fin 3000, x0 (ix3 b r k) := by
  rw [val_main_v0_apply, val_main_cst_apply]
  show Ideal.ofBits .f32 0x00000000#32 + _ = _
  rw [Ideal.ofBits_zero_f32, zero_add]
  exact Finset.sum_congr rfl fun k _ => congrArg x0 (funext fun a => Fin.ext (by
    match a with | ⟨0, _⟩ => rfl | ⟨1, _⟩ => rfl | ⟨2, _⟩ => rfl))

/-- The reference's factor at a row is `recipOrZero` of that row's sum: both comparisons are of the row sum with the
    float zero, the quotient's numerator is the float one, and the host's division is the extended reals'. -/
theorem factor_eq (x0 : S4x3000x3000.Idx → EReal) (j : S4x3000.Idx) :
    val_main_v8 (F := Ideal) x0 j = recipOrZero (val_main_v0 (F := Ideal) x0 j) := by
  simp only [val_main_v8_apply, val_main_v2_apply, val_main_v1_apply, val_main_cst_0_apply, val_main_call1_v1_apply,
    val_main_call1_v0_apply, val_main_cst_4_apply, val_main_v7_apply, val_main_v6_apply, val_main_cst_3_apply,
    val_main_v5_apply, val_main_v4_apply, val_main_v3_apply, val_main_cst_1_apply, val_main_call0_v1_apply,
    val_main_call0_v0_apply, val_main_cst_2_apply]
  rfl

/-- The reference's result is the row-normalised argument. -/
theorem reference_eq (x0 : S4x3000x3000.Idx → EReal) : val_main_v11 (F := Ideal) x0 = normalized x0 := by
  funext i
  obtain ⟨b, r, c, rfl⟩ : ∃ (b : Fin 4) (r : Fin 3000) (c : Fin 3000), i = ix3 b r c := ⟨i 0, i 1, i 2, eq_ix3 i⟩
  rw [normalized_apply, val_main_v11_apply, val_main_v10_apply, val_main_v9_apply, factor_eq]
  have hj : idx_main_v9 (idx_main_v10 (ix3 b r c)) = ix2 b r := funext fun a => Fin.ext (by
    match a with | ⟨0, _⟩ => rfl | ⟨1, _⟩ => rfl)
  rw [hj, rowsum_eq]
  rfl

end Cert.RefRowScale

end
-- ==== Proof.lean ====
/-
  Row normalisation of a batch of square matrices: the kernel and its reference compute the same array on the
  extended reals.

  Both programs send `adj[b, r, c]` to `s(b, r) · adj[b, r, c]`, where `s(b, r)` is one over the row sum
  `d = ∑ₖ adj[b, r, k]`, and zero where that sum is zero; both spell the factor
  `select (d = 0) 0 (1 / select (d = 0) 1 d)` with the same two constants (Proof/RowScale.lean).  They differ only in
  how the array is traversed: the reference reduces, compares, divides and multiplies whole arrays; the kernel walks a
  grid of (batch, tile of 600 rows) and, inside a tile, a loop over three slabs of 200 rows, summing each row along the
  lanes.  Since every tile and every slab consists of whole rows, and an entry's factor depends on its own row only,
  the pieces are restrictions of one function of the argument:

    * a slab's stored value is the slab normalised (Proof/SlabPayload.lean),
    * the three slabs tile the block, so the block ends normalised (Proof/BlockValue.lean),
    * the twenty blocks tile the array, so the result array is the argument normalised (Proof/ArrayValue.lean),
    * the reference's result, read one operation at a time, is the same function; its reduction starts from the float
      zero, which is the real zero (Proof/RefRowScale.lean).

  No law that fails at the infinities is used (only `0 + x = x`), so the finiteness precondition is never opened.  The
  three frames are the generated ones (the reference's is its generated run with the result dropped), and the
  idealisation rewrote nothing, so that conjunct is `True`.
-/
import proofs.«130804_j33243046871372_2_alg».proof.Defs
import proofs.«130804_j33243046871372_2_alg».proof.Proof.Gen.Kernel
import proofs.«130804_j33243046871372_2_alg».proof.Proof.Gen.Kernel.Skeleton
import proofs.«130804_j33243046871372_2_alg».proof.Proof.Gen.Kernel.Loops
import proofs.«130804_j33243046871372_2_alg».proof.Proof.Gen.Kernel.Launch
import proofs.«130804_j33243046871372_2_alg».proof.Proof.Gen.Kernel.Points
import proofs.«130804_j33243046871372_2_alg».proof.Proof.Gen.Kernel.Frame
import proofs.«130804_j33243046871372_2_alg».proof.Proof.Gen.KernelIdeal
import proofs.«130804_j33243046871372_2_alg».proof.Proof.Gen.KernelIdeal.Skeleton
import proofs.«130804_j33243046871372_2_alg».proof.Proof.Gen.KernelIdeal.Loops
import proofs.«130804_j33243046871372_2_alg».proof.Proof.Gen.KernelIdeal.Launch
import proofs.«130804_j33243046871372_2_alg».proof.Proof.Gen.KernelIdeal.Points
import proofs.«130804_j33243046871372_2_alg».proof.Proof.Gen.KernelIdeal.Frame
import proofs.«130804_j33243046871372_2_alg».proof.Proof.Gen.ReferenceIdeal
import proofs.«130804_j33243046871372_2_alg».proof.Proof.Gen.KernelIdeal.Value
import proofs.«130804_j33243046871372_2_alg».proof.Proof.Gen.ReferenceIdeal.Run
import proofs.«130804_j33243046871372_2_alg».proof.Proof.Gen.ReferenceIdeal.Read
import proofs.«130804_j33243046871372_2_alg».proof.Proof.Gen.Pre_finite_inputs
import proofs.«130804_j33243046871372_2_alg».proof.Proof.ArrayValue
import proofs.«130804_j33243046871372_2_alg».proof.Proof.RefRowScale
import Idealize.ShloMosaic.Adequacy
import Idealize.ShloMosaic.Init

noncomputable section

namespace Cert.Proof

open Idealize.ShloMosaic Idealize.ShloMosaic.TcCoe Idealize.SL.Sem

/-- The word-level kernel runs and keeps its argument: the generated frame. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- The reference runs and keeps its argument: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the argument row-normalised: the kernel's run block by block
    (`KernelRowScale.run`), the reference's run one operation at a time (`RefRowScale.reference_eq`), from arguments
    that agree. -/
theorem algebraic : Cert.algebraic_KernelIdeal_ReferenceIdeal := by
  intro m ρ m' ρ' _ hagree
  refine ⟨fun c => Cert.RowScale.normalized (m ((c.tc : Thread Cert.KernelIdeal.nD Cert.KernelIdeal.τ).loc Cert.KernelIdeal.main_arg0)),
    Cert.KernelRowScale.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.RefRowScale.reference_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
